-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S16x512 .f32 .bf16
  ∧ IdealRules.sign_bit.Statement Cert.KernelIdeal.S16x10112 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x512 : Shape := ⟨3, ![128, 128, 512]⟩
abbrev S512x10000 : Shape := ⟨2, ![512, 10000]⟩
abbrev S_ : Shape := ⟨0, ![]⟩

class Facts : Prop where
  bcast_S_S128x128x512 : S_.BroadcastsInDim S128x128x512 (![] : Fin 0 → Fin S128x128x512.rank)
  reducesTo_S128x128x512_S_d0_1_2 : S128x128x512.ReducesTo [0, 1, 2] S_
  h_S_ : 0 < S_.numel
  bcast_S_S512x10000 : S_.BroadcastsInDim S512x10000 (![] : Fin 0 → Fin S512x10000.rank)
  reducesTo_S512x10000_S_d0_1 : S512x10000.ReducesTo [0, 1] S_

variable [Facts]

def fn {F : FTy → Type} [FloatOps F] (main_arg0 : FVec F S128x128x512 .f32) (main_arg1 : FVec F S512x10000 .f32) : IVec S_ 1 :=
  let main_v0 : FVec F S128x128x512 .f32 := Host.absf main_arg0
  let main_cst : FVec F S_ .f32 := constant S_ .f32 0x7F800000#32
  let main_v1 : FVec F S128x128x512 .f32 := broadcastInDim S128x128x512 ![] bcast_S_S128x128x512 main_cst
  let main_v2 : IVec S128x128x512 1 := cmpf .olt main_v0 main_v1
  let main_c : IVec S_ 1 := constantI S_ 1 1#1
  let main_v3 : IVec S_ 1 := (fun x v => Host.reduce IntOp.andi x v reducesTo_S128x128x512_S_d0_1_2 h_S_) main_v2 main_c
  let main_v4 : FVec F S512x10000 .f32 := Host.absf main_arg1
  let main_cst_0 : FVec F S_ .f32 := constant S_ .f32 0x7F800000#32
  let main_v5 : FVec F S512x10000 .f32 := broadcastInDim S512x10000 ![] bcast_S_S512x10000 main_cst_0
  let main_v6 : IVec S512x10000 1 := cmpf .olt main_v4 main_v5
  let main_c_1 : IVec S_ 1 := constantI S_ 1 1#1
  let main_v7 : IVec S_ 1 := (fun x v => Host.reduce IntOp.andi x v reducesTo_S512x10000_S_d0_1 h_S_) main_v6 main_c_1
  let main_v8 : IVec S_ 1 := andi main_v3 main_v7
  main_v8
-- ==== Kernel.lean ====
abbrev S128x128x512 : Shape := ⟨3, ![128, 128, 512]⟩
abbrev S512x10000 : Shape := ⟨2, ![512, 10000]⟩
abbrev S_ : Shape := ⟨0, ![]⟩
abbrev S512x10112 : Shape := ⟨2, ![512, 10112]⟩
abbrev S128x10112 : Shape := ⟨2, ![128, 10112]⟩
abbrev S16x128x512 : Shape := ⟨3, ![16, 128, 512]⟩
abbrev S16x10112 : Shape := ⟨2, ![16, 10112]⟩
abbrev S16x512 : Shape := ⟨2, ![16, 512]⟩
abbrev S16x32x512 : Shape := ⟨3, ![16, 32, 512]⟩
abbrev S128x10000 : Shape := ⟨2, ![128, 10000]⟩

abbrev nBuf : Space → Nat
  | .hbm => 8
  | .vmem => 5
  | .smem => 0
  | _ => 0

abbrev bufTy : (tb : Table) → Fin (tcTables nBuf tb) → BufTy
  | .hbm, ⟨0, _⟩ => ⟨S128x128x512, .f32⟩
  | .hbm, ⟨1, _⟩ => ⟨S512x10000, .f32⟩
  | .hbm, ⟨2, _⟩ => ⟨S512x10000, .bf16⟩
  | .hbm, ⟨3, _⟩ => ⟨S_, .i32⟩
  | .hbm, ⟨4, _⟩ => ⟨S_, .bf16⟩
  | .hbm, ⟨5, _⟩ => ⟨S512x10112, .bf16⟩
  | .hbm, ⟨6, _⟩ => ⟨S128x10112, .f32⟩
  | .hbm, ⟨7, _⟩ => ⟨S128x10000, .f32⟩
  | .local _ .vmem, ⟨0, _⟩ => ⟨S16x128x512, .f32⟩
  | .local _ .vmem, ⟨1, _⟩ => ⟨S16x128x512, .f32⟩
  | .local _ .vmem, ⟨2, _⟩ => ⟨S512x10112, .bf16⟩
  | .local _ .vmem, ⟨3, _⟩ => ⟨S16x10112, .f32⟩
  | .local _ .vmem, ⟨4, _⟩ => ⟨S16x10112, .f32⟩
  | _, _ => ⟨S128x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![8], ![false]⟩

def k0_mult1 : BitVec 32 :=
  let c0_i32 : BitVec 32 := 0#32
  let c32_i32 : BitVec 32 := 32#32
  let v1 : BitVec 32 := Scalar.muli c0_i32 c32_i32
  v1
def k0_off1 (c0_i32 : BitVec 32) : Fin 3 → Nat :=
  let c0 : Index := 0#32
  let c32_i32 : BitVec 32 := 32#32
  let v1 : BitVec 32 := Scalar.muli c0_i32 c32_i32
  let v2 : BitVec 32 := v1
  let v3 : Index := Scalar.indexCast v2
  let c0_0 : Index := 0#32
  ![0, v3.toNat, 0]
def k0_mult2 : BitVec 32 :=
  let c1_i32 : BitVec 32 := 1#32
  let c32_i32_2 : BitVec 32 := 32#32
  let v7 : BitVec 32 := Scalar.muli c1_i32 c32_i32_2
  v7
def k0_mult3 : BitVec 32 :=
  let c2_i32 : BitVec 32 := 2#32
  let c32_i32_6 : BitVec 32 := 32#32
  let v13 : BitVec 32 := Scalar.muli c2_i32 c32_i32_6
  v13
def k0_mult4 : BitVec 32 :=
  let c3_i32 : BitVec 32 := 3#32
  let c32_i32_10 : BitVec 32 := 32#32
  let v19 : BitVec 32 := Scalar.muli c3_i32 c32_i32_10
  v19
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x10112 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x10112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  pads_S512x10000_S512x10112_000_01120 : S512x10000.Pads (![0, 0] : Fin 2 → Nat) ![0, 112] ![0, 0] S512x10112
  h_S_ : 0 < S_.numel
  h_S16x32x512 : 0 < S16x32x512.numel
  reduces_S16x32x512_S16x512 : S16x32x512.Reduces [1] S16x512
  inb_S512x10112_S512x10112_0_0 : ∀ a, (![0, 0] : Fin 2 → Nat) a + S512x10112.size a ≤ S512x10112.size a
  h_S512x10112 : 0 < S512x10112.numel
  shapeCasts_S512x10112_S512x10112 : S512x10112.ShapeCasts S512x10112
  inb_S16x10112_S16x10112_0_0 : ∀ a, (![0, 0] : Fin 2 → Nat) a + S16x10112.size a ≤ S16x10112.size a
  h_S16x10112 : 0 < S16x10112.numel
  slices_S128x10112_S128x10000_0_0 : S128x10112.Slices ![0, 0] S128x10000
  dot_S16x512_S512x10112_S16x10112_1_0_0_1_n_n_wf : DotDims.WF S16x512 S512x10112 S16x10112 [1] [0] [0] [1] [] []
  hrank0 : 0 < grid0.rank
  k0_mult1_dvd : 32 ∣ k0_mult1.toNat
  k0_off1_inb : ∀ (r : Fin 4), ∀ a, (k0_off1 (BitVec.ofNat 32 r.val)) a + S16x32x512.size a ≤ S16x128x512.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S128x128x512.size a
  hwx0_0 : ∀ i : grid0.Coords, EltTy.bits .f32 = 32 ∨ (Rect.block (s := S128x128x512) S16x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x10112.size a ≤ S512x10112.size a
  hwx0_1 : ∀ i : grid0.Coords, EltTy.bits .bf16 = 32 ∨ (Rect.block (s := S512x10112) S512x10112.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x10112.size a ≤ S128x10112.size a
  hwx0_2 : ∀ i : grid0.Coords, EltTy.bits .f32 = 32 ∨ (Rect.block (s := S128x10112) S16x10112.size (cc0_transform_2 i) (hinb0_2 i)).WholeWords (EltTy.packing .f32)

variable [Facts₀]

def dot_S16x512_S512x10112_S16x10112_1_0_0_1_n_n : DotDims S16x512 S512x10112 S16x10112 where
  lhsContracting := [1]
  rhsContracting := [0]
  lhsNonContracting := [0]
  rhsNonContracting := [1]
  lhsBatch := []
  rhsBatch := []
  wf := dot_S16x512_S512x10112_S16x10112_1_0_0_1_n_n_wf

abbrev win0_0 : Pipeline.Window sig grid0 :=
  Pipeline.Window.ofSpec (Memref.whole main_arg0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x10112.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x10112.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x128x512 : Shape := ⟨3, ![128, 128, 512]⟩
abbrev S512x10000 : Shape := ⟨2, ![512, 10000]⟩
abbrev S_ : Shape := ⟨0, ![]⟩
abbrev S128x512 : Shape := ⟨2, ![128, 512]⟩
abbrev S128x10000 : Shape := ⟨2, ![128, 10000]⟩

abbrev nBuf : Space → Nat
  | .hbm => 6
  | .vmem => 0
  | .smem => 0
  | _ => 0

abbrev bufTy : (tb : Table) → Fin (tcTables nBuf tb) → BufTy
  | .hbm, ⟨0, _⟩ => ⟨S128x128x512, .f32⟩
  | .hbm, ⟨1, _⟩ => ⟨S512x10000, .f32⟩
  | .hbm, ⟨2, _⟩ => ⟨S_, .f32⟩
  | .hbm, ⟨3, _⟩ => ⟨S128x512, .f32⟩
  | .hbm, ⟨4, _⟩ => ⟨S128x10000, .f32⟩
  | .hbm, ⟨5, _⟩ => ⟨S128x10000, .f32⟩
  | _, _ => ⟨S128x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  reducesTo_S128x128x512_S128x512_d1 : S128x128x512.ReducesTo [1] S128x512
  h_S_ : 0 < S_.numel
  dot_S128x512_S512x10000_S128x10000_1_0_0_1_n_n_wf : DotDims.WF S128x512 S512x10000 S128x10000 [1] [0] [0] [1] [] []

variable [Facts₀]

def dot_S128x512_S512x10000_S128x10000_1_0_0_1_n_n : DotDims S128x512 S512x10000 S128x10000 where
  lhsContracting := [1]
  rhsContracting := [0]
  lhsNonContracting := [0]
  rhsNonContracting := [1]
  lhsBatch := []
  rhsBatch := []
  wf := dot_S128x512_S512x10000_S128x10000_1_0_0_1_n_n_wf

class Facts : Prop extends Facts₀ where

variable [Facts]
-- ==== Proof.LibChunkSum.lean ====
/-
  A sum over a range of length `c * n`, taken chunk by chunk.

  In any additive commutative monoid the sum of `f` over the `N = c * n` indices is the sum over the `c` chunks of
  the sum of `f` over the `n` positions of the chunk, position `j` of chunk `k` being the index `k * n + j`.  Only
  associativity and commutativity of `+` are used, so the law holds on the extended reals with no finiteness
  hypothesis: infinite terms may be regrouped like any others.
-/
import Mathlib.Algebra.BigOperators.Fin
import Mathlib.Logic.Equiv.Fin.Basic

namespace ChunkSum

open Finset

/-- Position `j` of chunk `k`, as an index below `N = c * n`. -/
def pos {c n N : Nat} (h : c * n = N) (k : Fin c) (j : Fin n) : Fin N :=
  ⟨k.val * n + j.val, by
    have hk := k.isLt
    have hj := j.isLt
    calc k.val * n + j.val < k.val * n + n := by omega
      _ = (k.val + 1) * n := (Nat.succ_mul k.val n).symm
      _ ≤ c * n := Nat.mul_le_mul_right n (Nat.succ_le_of_lt hk)
      _ = N := h⟩

@[simp] theorem pos_val {c n N : Nat} (h : c * n = N) (k : Fin c) (j : Fin n) :
    (pos h k j).val = k.val * n + j.val := rfl

/-- A sum over `N = c * n` indices is the sum over the chunks of the chunks' sums. -/
theorem sum_chunks {M : Type*} [AddCommMonoid M] {c n N : Nat} (h : c * n = N) (f : Fin N → M) :
    ∑ i : Fin N, f i = ∑ k : Fin c, ∑ j : Fin n, f (pos h k j) := by
  subst h
  rw [← Equiv.sum_comp finProdFinEquiv f, Fintype.sum_prod_type]
  refine Finset.sum_congr rfl fun k _ => Finset.sum_congr rfl fun j _ => congrArg f (Fin.ext ?_)
  show j.val + n * k.val = k.val * n + j.val
  rw [Nat.mul_comm, Nat.add_comm]

/-- Four chunks, added one after the other from zero, as a kernel's loop accumulates them. -/
theorem sum_four_chunks {M : Type*} [AddCommMonoid M] {n N : Nat} (h : 4 * n = N) (f : Fin N → M) :
    (((0 + ∑ j : Fin n, f (pos h 0 j)) + ∑ j : Fin n, f (pos h 1 j)) + ∑ j : Fin n, f (pos h 2 j))
        + ∑ j : Fin n, f (pos h 3 j)
      = ∑ i : Fin N, f i := by
  rw [sum_chunks h f, Fin.sum_univ_four, zero_add]

end ChunkSum
-- ==== Proof.LibRealEntries.lean ====
/-
  Real entries in the extended reals: general facts, free of any program.

  An extended real is REAL when it is the image of a real number (neither infinity).  Real numbers are closed under
  sums and products, so:
    * a host gather of an array of real numbers holds real numbers (each entry of the result IS an entry of the
      operand, at the operand index the start indices select);
    * a host scatter-add into an array of real numbers, of updates that are real numbers, holds real numbers (each
      entry is the operand's entry plus the finite sum of the updates that land on it);
    * an entry whose flag "|a i| < +infinity" is 1 is real (|x| = max x (−x), and max x (−x) < ⊤ excludes both ends).
-/
import Idealize.ShloMosaic.PureOps.Ideal
import Idealize.ShloMosaic.Lib.ValueIdx

noncomputable section

open scoped BigOperators

namespace Idealize.ShloMosaic.RealEntries

open Idealize.ShloMosaic

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is real. -/
theorem IsReal.sum {ι : Type} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The float word +0.0 denotes a real number. -/
theorem zero_word_real : IsReal (Ideal.ofBits .f32 0x00000000#32) := by
  have h : Ideal.ofBits .f32 0x00000000#32 = 0 := by simp [Ideal.ofBits, Ideal.ieee]
  rw [h]; exact IsReal.zero

/-- A host gather of an array of real numbers holds real numbers: every entry is an entry of the operand. -/
theorem gather_real {s si t : Shape} {w : Nat} (d : GatherDims s si t) (x : s.Idx → EReal) (idx : IVec si w)
    (hx : ∀ i, IsReal (x i)) (j : t.Idx) : IsReal (Host.gather d x idx j) := hx _

/-- A host scatter-add of real updates into an array of real numbers holds real numbers: each entry is the operand's
    plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd d x idx upd i) := by
  have e : Host.scatterAdd d x idx upd i = Ideal.hostScatterAdd d x idx upd i := rfl
  rw [e]; unfold Ideal.hostScatterAdd
  exact (hx i).add (IsReal.sum _ _ fun j _ => hu j)

/-- The float word of +infinity denotes the top of the extended reals. -/
theorem top_word : Ideal.ofBits .f32 0x7F800000#32 = ⊤ := by simp [Ideal.ofBits, Ideal.ieee]

/-- An extended real whose absolute value is below the top is a real number. -/
theorem real_of_abs_lt_top {x : EReal} (h : max x (-x) < ⊤) : IsReal x := by
  induction x using EReal.rec with
  | bot => simp at h
  | top => simp at h
  | coe r => exact ⟨r, rfl⟩

/-- An entry whose flag "|a i| < +infinity" is 1 is a real number. -/
theorem real_of_flag {s : Shape} (a B : FVec Ideal s .f32) (hB : ∀ i, B i = Ideal.ofBits .f32 0x7F800000#32) (i : s.Idx)
    (e : cmpf .olt (Host.absf a) B i = 1#1) : IsReal (a i) := by
  have e' : Ideal.cmp .olt (max (a i) (-(a i))) (B i) = 1#1 := e
  rw [hB i, top_word] at e'
  unfold Ideal.cmp at e'
  refine real_of_abs_lt_top ?_
  by_contra hlt
  simp [hlt] at e'

end Idealize.ShloMosaic.RealEntries

end
-- ==== Proof.Spec.lean ====
/-
  The mathematics of the sign projection, free of any program.

  Both programs compute, for a batch row `b` and an output column `d`,
      sign (∑ₖ (∑ₕ x (b, h, k)) · w (k, d))
  on the extended reals.  The reference takes the inner sum over the 128 channels `h` at once; the kernel takes it as
  four chunks of 32 channels added one after the other from zero — the same sum, since `+` is associative and
  commutative on the extended reals.  The kernel then multiplies twice: once the row sums `S` against the weights and
  once the remainder `S − S` against the weights, and adds the two products.  When every entry of `x` is a real
  number each `S` is real, so `S − S = 0`, `0 · w = 0` whatever `w` is (on the extended reals `0 · ±∞ = 0`), and the
  second product vanishes.  Both then take the order's sign: `∓1` at the infinities and at the nonzero reals, `0` at `0`.
-/
import Idealize.ShloMosaic.PureOps.Ideal
import Idealize.ShloMosaic.PureOps.Ideal.Laws
import Idealize.ShloMosaic.Lib.ValueIdx
import proofs.«169891_j11115375362812_2_alg».proof.Proof.LibChunkSum
import proofs.«169891_j11115375362812_2_alg».proof.Proof.LibRealEntries

noncomputable section

open scoped BigOperators

namespace Cert.SignProj

open Idealize.ShloMosaic Idealize.ShloMosaic.ValueIdx Idealize.ShloMosaic.RealEntries

/-! ## The channel sum, in four chunks -/

/-- Four chunks of 32 channels added one after the other from the zero word. -/
def chunked (f : Fin 128 → EReal) : EReal :=
  (((Ideal.ofBits .f32 0x00000000#32 + ∑ j : Fin 32, f (ChunkSum.pos (c := 4) rfl 0 j))
      + ∑ j : Fin 32, f (ChunkSum.pos (c := 4) rfl 1 j))
      + ∑ j : Fin 32, f (ChunkSum.pos (c := 4) rfl 2 j))
      + ∑ j : Fin 32, f (ChunkSum.pos (c := 4) rfl 3 j)

/-- They add up to the sum over all 128 channels. -/
theorem chunked_eq_sum (f : Fin 128 → EReal) : chunked f = ∑ h : Fin 128, f h := by
  unfold chunked
  rw [Ideal.ofBits_zero_f32]
  exact ChunkSum.sum_four_chunks (n := 32) (N := 128) rfl f

/-! ## The two products -/

/-- A real number minus itself is zero; so the product of the remainders against any weights vanishes. -/
theorem hi_lo {n : Nat} (S w w' : Fin n → EReal) (hS : ∀ k, IsReal (S k)) :
    (∑ k, S k * w k) + (∑ k, (S k - S k) * w' k) = ∑ k, S k * w k := by
  have h0 : ∀ k, (S k - S k) * w' k = 0 := fun k => by
    obtain ⟨r, hr⟩ := hS k
    rw [hr, ← EReal.coe_sub, sub_self, EReal.coe_zero, zero_mul]
  rw [Finset.sum_congr rfl fun k _ => h0 k, Finset.sum_const_zero, add_zero]

/-! ## The two whole-array functions -/

/-- What the reference holds at `(b, d)`. -/
def spec (x : (⟨3, ![128, 128, 512]⟩ : Shape).Idx → EReal) (w : (⟨2, ![512, 10000]⟩ : Shape).Idx → EReal)
    (b : Fin 128) (d : Fin 10000) : EReal :=
  Ideal.sign (∑ k : Fin 512, (∑ h : Fin 128, x (ix3 b h k)) * w (ix2 k d))

/-- The reference's result as one array over the index type. -/
def specArr (x : (⟨3, ![128, 128, 512]⟩ : Shape).Idx → EReal) (w : (⟨2, ![512, 10000]⟩ : Shape).Idx → EReal) :
    (⟨2, ![128, 10000]⟩ : Shape).Idx → EReal :=
  fun i => spec x w ⟨(i 0).val, idx2_lt0 i⟩ ⟨(i 1).val, idx2_lt1 i⟩

theorem specArr_apply (x : (⟨3, ![128, 128, 512]⟩ : Shape).Idx → EReal) (w : (⟨2, ![512, 10000]⟩ : Shape).Idx → EReal)
    (b : Fin 128) (d : Fin 10000) : specArr x w (ix2 b d) = spec x w b d := rfl

/-- What the kernel's padded result array holds at `(b, q)`, over the padded weights. -/
def padded (x : (⟨3, ![128, 128, 512]⟩ : Shape).Idx → EReal) (wp : (⟨2, ![512, 10112]⟩ : Shape).Idx → EReal)
    (b : Fin 128) (q : Fin 10112) : EReal :=
  Ideal.sign ((∑ k : Fin 512, chunked (fun h => x (ix3 b h k)) * wp (ix2 k q))
    + ∑ k : Fin 512, (chunked (fun h => x (ix3 b h k)) - chunked (fun h => x (ix3 b h k))) * wp (ix2 k q))

/-- On real inputs, at a column the padding does not touch, they agree. -/
theorem padded_eq_spec (x : (⟨3, ![128, 128, 512]⟩ : Shape).Idx → EReal) (wp : (⟨2, ![512, 10112]⟩ : Shape).Idx → EReal)
    (w : (⟨2, ![512, 10000]⟩ : Shape).Idx → EReal) (hx : ∀ i, IsReal (x i)) (b : Fin 128) (d : Fin 10000) (q : Fin 10112)
    (hw : ∀ k : Fin 512, wp (ix2 k q) = w (ix2 k d)) : padded x wp b q = spec x w b d := by
  unfold padded spec
  rw [hi_lo _ _ _ fun k => by rw [chunked_eq_sum]; exact IsReal.sum _ _ fun h _ => hx _]
  refine congrArg Ideal.sign (Finset.sum_congr rfl fun k _ => ?_)
  rw [chunked_eq_sum, hw k]

end Cert.SignProj

end
-- ==== Proof.RefValue.lean ====
/-
  The reference, read at an index: its result at `(b, d)` is the sign of the sum over `k` of the channel sums of
  `x` at `(b, ·, k)` times the weight at `(k, d)` — the reduction over the channel axis starts from the zero word,
  which is the extended real zero, and the contraction's two operands are read at `(b, k)` and `(k, d)`.
-/
import proofs.«169891_j11115375362812_2_alg».proof.Proof.Gen.ReferenceIdeal.Read
import proofs.«169891_j11115375362812_2_alg».proof.Proof.Spec

noncomputable section

open scoped BigOperators

namespace Cert.SignProj.Ref

open Cert.ReferenceIdeal Cert.ReferenceIdeal.Read Idealize.ShloMosaic Idealize.ShloMosaic.ValueIdx

/-- The left operand of the contraction at output `(b, d)` and position `k` is entry `(b, k)`. -/
theorem lidx_eq (b : Fin 128) (d : Fin 10000) (k : Fin 512) : lidx_main_v1 (ix2 b d) k = ix2 b k :=
  funext fun a => Fin.ext (by match a with | ⟨0, _⟩ => rfl | ⟨1, _⟩ => rfl)

/-- The right operand is entry `(k, d)`. -/
theorem ridx_eq (b : Fin 128) (d : Fin 10000) (k : Fin 512) : ridx_main_v1 (ix2 b d) k = ix2 k d :=
  funext fun a => Fin.ext (by match a with | ⟨0, _⟩ => rfl | ⟨1, _⟩ => rfl)

/-- The channel reduction at `(b, k)` reads `x` at `(b, h, k)`. -/
theorem idx_eq (b : Fin 128) (k : Fin 512) (h : Fin 128) : idx_main_v0 (ix2 b k) h = ix3 b h k :=
  funext fun a => Fin.ext (by match a with | ⟨0, _⟩ => rfl | ⟨1, _⟩ => rfl | ⟨2, _⟩ => rfl)

/-- The reference's result at `(b, d)`. -/
theorem result_apply (x0 : (⟨S128x128x512, .f32⟩ : BufTy).Contents (Elt Ideal))
    (x1 : (⟨S512x10000, .f32⟩ : BufTy).Contents (Elt Ideal)) (b : Fin 128) (d : Fin 10000) :
    val_main_v2 (F := Ideal) x0 x1 (ix2 b d) = spec x0 x1 b d := by
  rw [val_main_v2_apply, Ideal.hostUnary_sign_def, val_main_v1_apply]
  unfold spec
  refine congrArg Ideal.sign (Finset.sum_congr rfl fun k _ => ?_)
  rw [lidx_eq, ridx_eq, val_main_v0_apply, val_main_cst_apply, Ideal.ofBits_def, Ideal.ofBits_zero_f32, zero_add]
  refine congrArg (· * _) (Finset.sum_congr rfl fun h _ => ?_)
  rw [idx_eq]

/-- The reference's result array is the specification. -/
theorem result_eq (x0 : (⟨S128x128x512, .f32⟩ : BufTy).Contents (Elt Ideal))
    (x1 : (⟨S512x10000, .f32⟩ : BufTy).Contents (Elt Ideal)) : val_main_v2 (F := Ideal) x0 x1 = specArr x0 x1 :=
  funext fun i => by
    obtain ⟨b, d, rfl⟩ : ∃ (b : Fin 128) (d : Fin 10000), i = ix2 b d := ⟨i 0, i 1, eq_ix2 i⟩
    exact result_apply x0 x1 b d

end Cert.SignProj.Ref

end
-- ==== Proof.Body.lean ====
/-
  What one grid step leaves in the output block, as a function of its two input blocks.

  The body loads four chunks of 32 channels of its `x` block (rows `32c … 32c + 31` of the channel axis, `c = 0 … 3`),
  loads the whole weight block twice, and stores one value over the whole output block.  So the output block after
  the step is that one stored value: the body's arithmetic applied to the four chunks and to the weight block.
-/
import proofs.«169891_j11115375362812_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.SignProj.Kernel

open Cert.KernelIdeal Cert.KernelIdeal.Gen

variable {F : FTy → Type} [FloatOps F]

theorem zeros2 : (![0, 0] : Fin 2 → Nat) = fun _ => 0 := funext fun a => by fin_cases a <;> rfl

/-- Chunk `c` of an `x` block: the 32 channels from `32c` on, every batch row and every column. -/
def chunk (off : Fin 3 → Nat) (inb : ∀ a, off a + S16x32x512.size a ≤ S16x128x512.size a)
    (x0 : Vec F S16x128x512 .f32) : Vec F S16x32x512 .f32 :=
  View.ld x0 (Rect.unit (s := S16x128x512) off S16x32x512.size inb)

/-- The body's arithmetic on the four chunks of the `x` block and on the weight block. -/
def bodyFn (x0 : Vec F S16x128x512 .f32) (x1 : Vec F S512x10112 .bf16) : Vec F S16x10112 .f32 :=
  k0_pay1
    (k0_pay3 (chunk ![0, 0, 0] (by decide) x0) (chunk ![0, 32, 0] (by decide) x0) (chunk ![0, 64, 0] (by decide) x0)
      (chunk ![0, 96, 0] (by decide) x0))
    (k0_pay4 (chunk ![0, 0, 0] (by decide) x0) (chunk ![0, 32, 0] (by decide) x0) (chunk ![0, 64, 0] (by decide) x0)
      (chunk ![0, 96, 0] (by decide) x0) x1)
    x1

/-- The output block after a step is the body's arithmetic on the step's input blocks: the step's one store covers
    the block, and its loads read the input blocks as they are. -/
theorem out_eq (c : Dev nD) (i : grid0.Coords) (a1 : Memref sig .tc .vmem S16x128x512 .f32) (h1 : a1.IsWhole)
    (a2 : Memref sig .tc .vmem S512x10112 .bf16) (h2 : a2.IsWhole) (a3 : Memref sig .tc .vmem S16x10112 .f32)
    (h3 : a3.IsWhole) (x0 : Vec F S16x128x512 .f32) (x1 : Vec F S512x10112 .bf16) :
    out0_A_2 c i a1 h1 a2 h2 a3 h3 x0 x1 = bodyFn x0 x1 := by
  unfold out0_A_2
  rw [View.read_writes_eq_canon _ _ _ (cover0_A_2 c i a1 h1 a2 h2 a3 h3 x0 x1)]
  unfold kernelRun0_A
  dsimp only
  sl_unfold_words
  rw [View.canon_unit_zero zeros2]
  simp only [View.readAt_eq_ld, h1.read_unread, h2.read_unread, View.ld_unit_zero (S := S512x10112) zeros2]
  rfl

end Cert.SignProj.Kernel

end
-- ==== Proof.LibPlainDot.lean ====
/-
  A plain matrix product read at an index, at the ideal instance (floats are extended reals, every operation exact),
  free of any program.

  For the dimension numbers of an `M×K` by `K×N` product with no batch axis (`DotDims.plain M K N`: the left operand
  contracted on its second axis, the right on its first), both a kernel's matrix-unit product into a zero accumulator
  and a host `dot_general` hold, at `(p, q)`, the sum over `k` of `l (p, k) · r (k, q)`: no rounding, no order of
  accumulation, no tile shape is left in either.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : Nat}

/-- The left operand's row is the output's row … -/
theorem lhs_row (p : Fin M) (q : Fin N) (k : (DotDims.plain M K N).contr.Idx) :
    ((DotDims.plain M K N).lhsIdx (ix2 p q) k ⟨0, Nat.zero_lt_two⟩).val = p.val := by
  unfold DotDims.lhsIdx
  rw [dif_neg (show ¬(⟨0, Nat.zero_lt_two⟩ : Fin 2) ∈ (DotDims.plain M K N).lhsBatch by simp [DotDims.plain]),
    dif_pos (show (⟨0, Nat.zero_lt_two⟩ : Fin 2) ∈ (DotDims.plain M K N).lhsNonContracting by simp [DotDims.plain])]
  rfl

/-- … its column the contraction index … -/
theorem lhs_col (p : Fin M) (q : Fin N) (k : (DotDims.plain M K N).contr.Idx) :
    ((DotDims.plain M K N).lhsIdx (ix2 p q) k ⟨1, Nat.one_lt_two⟩).val = (k ⟨0, Nat.one_pos⟩).val :=
  (DotDims.plain M K N).lhsIdx_val_of_single rfl (ix2 p q) k

/-- … the right operand's row the contraction index … -/
theorem rhs_row (p : Fin M) (q : Fin N) (k : (DotDims.plain M K N).contr.Idx) :
    ((DotDims.plain M K N).rhsIdx (ix2 p q) k ⟨0, Nat.zero_lt_two⟩).val = (k ⟨0, Nat.one_pos⟩).val :=
  (DotDims.plain M K N).rhsIdx_val_of_single rfl (ix2 p q) k

/-- … and its column the output's column. -/
theorem rhs_col (p : Fin M) (q : Fin N) (k : (DotDims.plain M K N).contr.Idx) :
    ((DotDims.plain M K N).rhsIdx (ix2 p q) k ⟨1, Nat.one_lt_two⟩).val = q.val := by
  unfold DotDims.rhsIdx
  rw [dif_neg (show ¬(⟨1, Nat.one_lt_two⟩ : Fin 2) ∈ (DotDims.plain M K N).rhsBatch by simp [DotDims.plain]),
    dif_pos (show (⟨1, Nat.one_lt_two⟩ : Fin 2) ∈ (DotDims.plain M K N).rhsNonContracting by simp [DotDims.plain])]
  rfl

/-- The sum over the one-axis contraction index is the sum over `k : Fin K` of `l (p, k) · r (k, q)`. -/
theorem plain_sum (l : (⟨2, ![M, K]⟩ : Shape).Idx → EReal) (r : (⟨2, ![K, N]⟩ : Shape).Idx → EReal) (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row p q _
      | ⟨1, _⟩ => exact (lhs_col p q _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row p q _).trans hk
      | ⟨1, _⟩ => exact rhs_col p q _)
  rw [el, er]

/-- A matrix-unit product into the zero splat, at `(p, q)`. -/
theorem matmul_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant (F := Ideal) ⟨2, ![M, N]⟩ .f32 0x00000000#32) (ix2 p q)
      = ∑ k : Fin K, l (ix2 p k) * r (ix2 k q) := by
  rw [Ideal.matmul_constant_zero_apply]
  exact plain_sum l r p q

/-- A host `dot_general`, at `(p, q)`, whatever its schedule key. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end Cert.LibPlainDot

end
-- ==== Proof.BodyValue.lean ====
/-
  The body's arithmetic read at one entry, at the ideal instance.

  At `(p, q)` of the output block the body leaves the sign of
      ∑ₖ S (p, k) · W (k, q)  +  ∑ₖ (S (p, k) − S (p, k)) · W (k, q)
  where `W` is the weight block and `S (p, k)` is the four 32-channel chunks of the `x` block at `(p, ·, k)` added one
  after the other from zero: a lane sum over the middle axis is the sum over that axis's 32 coordinates, a matrix-unit
  product into zeros is the sum over the contraction index, the format changes are the identity, and the printed
  select-and-compare spelling of the sign is the order's sign.
-/
import proofs.«169891_j11115375362812_2_alg».proof.Proof.Body
import proofs.«169891_j11115375362812_2_alg».proof.Proof.Spec
import proofs.«169891_j11115375362812_2_alg».proof.Proof.LibPlainDot
import Idealize.ShloMosaic.PureOps.Ideal.Laws
import Idealize.ShloMosaic.Lib.ValueIdx

noncomputable section

open scoped BigOperators

open Idealize.ShloMosaic Idealize.ShloMosaic.TcCoe Idealize.SL.Sem

namespace Cert.SignProj.Kernel

open Cert.KernelIdeal Cert.KernelIdeal.Gen Idealize.ShloMosaic.ValueIdx

/-- A chunk at `(p, j, k)` is the block at `(p, o + j, k)`, `o` the chunk's first channel. -/
theorem chunk_apply (o : Nat) (inb : ∀ a, (![0, o, 0] : Fin 3 → Nat) a + S16x32x512.size a ≤ S16x128x512.size a)
    (x0 : Vec Ideal S16x128x512 .f32) (p : Fin 16) (j : Fin 32) (k : Fin 512) (r : Fin 128) (hr : r.val = o + j.val) :
    chunk ![0, o, 0] inb x0 (ix3 p j k) = x0 (ix3 p r k) := by
  unfold chunk
  show x0 ((Rect.unit (s := S16x128x512) ![0, o, 0] S16x32x512.size inb).idx (ix3 p j k)) = _
  refine congrArg x0 (funext fun a => Fin.ext ?_)
  match a with
  | ⟨0, _⟩ => show 0 + 1 * p.val = p.val; omega
  | ⟨1, _⟩ => show o + 1 * j.val = r.val; omega
  | ⟨2, _⟩ => show 0 + 1 * k.val = k.val; omega

/-- The lane sum of a chunk over its 32 channels, at `(p, k)`. -/
def laneSum (v : Vec Ideal S16x32x512 .f32) (p : Fin 16) (k : Fin 512) : EReal :=
  multiReduction (F := Ideal) .add [1] S16x512 v 0x00000000#32 reduces_S16x32x512_S16x512 (.inl rfl) rfl (ix2 p k)

theorem laneSum_eq (v : Vec Ideal S16x32x512 .f32) (p : Fin 16) (k : Fin 512) :
    laneSum v p k = ∑ j : Fin 32, v (ix3 p j k) :=
  (Ideal.multiReduction_add_single v 0x00000000#32 reduces_S16x32x512_S16x512 (.inl rfl) rfl (ix2 p k)).trans
    (Finset.sum_congr rfl fun j _ => congrArg v (funext fun a => Fin.ext (by
      match a with
      | ⟨0, _⟩ => rfl
      | ⟨1, _⟩ => rfl
      | ⟨2, _⟩ => rfl)))

/-- The four chunks' lane sums added one after the other from the zero word. -/
def rows (v4 v10 v16 v22 : Vec Ideal S16x32x512 .f32) (p : Fin 16) (k : Fin 512) : EReal :=
  (((Ideal.ofBits .f32 0x00000000#32 + ∑ j : Fin 32, v4 (ix3 p j k)) + ∑ j : Fin 32, v10 (ix3 p j k))
    + ∑ j : Fin 32, v16 (ix3 p j k)) + ∑ j : Fin 32, v22 (ix3 p j k)

theorem pay2_apply (v4 v10 v16 v22 : Vec Ideal S16x32x512 .f32) (p : Fin 16) (k : Fin 512) :
    k0_pay2 (F := Ideal) v4 v10 v16 v22 (ix2 p k) = rows v4 v10 v16 v22 p k := by
  have e : k0_pay2 (F := Ideal) v4 v10 v16 v22 (ix2 p k)
      = (((Ideal.ofBits .f32 0x00000000#32 + laneSum v4 p k) + laneSum v10 p k) + laneSum v16 p k) + laneSum v22 p k := rfl
  rw [e, laneSum_eq, laneSum_eq, laneSum_eq, laneSum_eq]
  rfl

/-- The remainder the second product takes: the row sums minus themselves (the two format changes are the identity). -/
theorem pay3_apply (v4 v10 v16 v22 : Vec Ideal S16x32x512 .f32) (p : Fin 16) (k : Fin 512) :
    k0_pay3 (F := Ideal) v4 v10 v16 v22 (ix2 p k) = rows v4 v10 v16 v22 p k - rows v4 v10 v16 v22 p k := by
  have e : k0_pay3 (F := Ideal) v4 v10 v16 v22 (ix2 p k)
      = k0_pay2 (F := Ideal) v4 v10 v16 v22 (ix2 p k) - k0_pay2 (F := Ideal) v4 v10 v16 v22 (ix2 p k) := rfl
  rw [e, pay2_apply]

/-- The kernel's dimension numbers are those of a plain product. -/
theorem dims_plain : dot_S16x512_S512x10112_S16x10112_1_0_0_1_n_n = DotDims.plain 16 512 10112 := rfl

/-- A matrix-unit product of the body into zeros, at `(p, q)`. -/
theorem mm_apply (l : FVec Ideal S16x512 .bf16) (r : FVec Ideal S512x10112 .bf16) (p : Fin 16) (q : Fin 10112) :
    matmul (F := Ideal) dot_S16x512_S512x10112_S16x10112_1_0_0_1_n_n none l r (constant (F := Ideal) S16x10112 .f32 0x00000000#32) (ix2 p q)
      = ∑ k : Fin 512, l (ix2 p k) * r (ix2 k q) := by
  rw [dims_plain]
  exact Cert.LibPlainDot.matmul_plain_apply none l r p q

/-- The first product: the row sums against the weight block. -/
theorem pay4_apply (v4 v10 v16 v22 : Vec Ideal S16x32x512 .f32) (v29 : Vec Ideal S512x10112 .bf16) (p : Fin 16) (q : Fin 10112) :
    k0_pay4 (F := Ideal) v4 v10 v16 v22 v29 (ix2 p q) = ∑ k : Fin 512, rows v4 v10 v16 v22 p k * v29 (ix2 k q) := by
  have e : k0_pay4 (F := Ideal) v4 v10 v16 v22 v29 (ix2 p q)
      = matmul (F := Ideal) dot_S16x512_S512x10112_S16x10112_1_0_0_1_n_n none
          (truncf .bf16 (k0_pay2 (F := Ideal) v4 v10 v16 v22) bitsLt_bf16_f32)
          (shapeCast S512x10112 v29 shapeCasts_S512x10112_S512x10112) (constant (F := Ideal) S16x10112 .f32 0x00000000#32) (ix2 p q) := rfl
  rw [e, mm_apply, shapeCast_self]
  refine Finset.sum_congr rfl fun k _ => congrArg (· * _) ?_
  exact pay2_apply v4 v10 v16 v22 p k

/-- The stored value: the sign of the first product plus the second. -/
theorem pay1_apply (v28 : FVec Ideal S16x512 .bf16) (v31 : FVec Ideal S16x10112 .f32) (v32 : Vec Ideal S512x10112 .bf16)
    (p : Fin 16) (q : Fin 10112) :
    k0_pay1 (F := Ideal) v28 v31 v32 (ix2 p q) = Ideal.sign (v31 (ix2 p q) + ∑ k : Fin 512, v28 (ix2 p k) * v32 (ix2 k q)) := by
  have e : k0_pay1 (F := Ideal) v28 v31 v32 (ix2 p q)
      = Ideal.sign (v31 (ix2 p q) + matmul (F := Ideal) dot_S16x512_S512x10112_S16x10112_1_0_0_1_n_n none v28
          (shapeCast S512x10112 v32 shapeCasts_S512x10112_S512x10112) (constant (F := Ideal) S16x10112 .f32 0x00000000#32) (ix2 p q)) :=
    Ideal.jnp_sign_eq_sign_f32 _
  rw [e, mm_apply, shapeCast_self]

/-- The body's arithmetic at `(p, q)` of the output block, over its two input blocks. -/
theorem bodyFn_apply (x0 : Vec Ideal S16x128x512 .f32) (x1 : Vec Ideal S512x10112 .bf16) (p : Fin 16) (q : Fin 10112) :
    bodyFn (F := Ideal) x0 x1 (ix2 p q)
      = Ideal.sign ((∑ k : Fin 512, chunked (fun h => x0 (ix3 p h k)) * x1 (ix2 k q))
          + ∑ k : Fin 512, (chunked (fun h => x0 (ix3 p h k)) - chunked (fun h => x0 (ix3 p h k))) * x1 (ix2 k q)) := by
  have hrows : ∀ k : Fin 512, rows (chunk ![0, 0, 0] (by decide) x0) (chunk ![0, 32, 0] (by decide) x0)
      (chunk ![0, 64, 0] (by decide) x0) (chunk ![0, 96, 0] (by decide) x0) p k = chunked (fun h => x0 (ix3 p h k)) := fun k => by
    unfold rows chunked
    refine congrArg₂ (· + ·) (congrArg₂ (· + ·) (congrArg₂ (· + ·) (congrArg (_ + ·) ?_) ?_) ?_) ?_
    all_goals refine Finset.sum_congr rfl fun j _ => ?_
    · exact chunk_apply 0 _ x0 p j k _ (by simp [ChunkSum.pos_val])
    · exact chunk_apply 32 _ x0 p j k _ (by simp [ChunkSum.pos_val])
    · exact chunk_apply 64 _ x0 p j k _ (by simp [ChunkSum.pos_val])
    · exact chunk_apply 96 _ x0 p j k _ (by simp [ChunkSum.pos_val])
  unfold bodyFn
  rw [pay1_apply, pay4_apply]
  refine congrArg Ideal.sign (congrArg₂ (· + ·) (Finset.sum_congr rfl fun k _ => ?_) (Finset.sum_congr rfl fun k _ => ?_))
  · rw [hrows]
  · rw [pay3_apply, hrows]

end Cert.SignProj.Kernel

end
-- ==== Proof.Blocks.lean ====
/-
  From the grid steps' blocks to the padded result array, at the ideal instance.

  Step `t` of the eight reads batch rows `16t … 16t + 15` of `x` (every channel, every column) and the whole padded
  weight array, and writes back rows `16t … 16t + 15` of the padded result.  So entry `(b, q)` of the padded result is
  written by step `b / 16`, and holds the body's arithmetic at row `b mod 16` of that step's blocks: the sign of the two
  products over the channel sums of `x` at batch row `b` and the padded weights' column `q`.  The padded weights are
  the host's zero padding of the weights, narrowed to sixteen bits on the way (the identity on extended reals).
-/
import proofs.«169891_j11115375362812_2_alg».proof.Proof.BodyValue
import Idealize.ShloMosaic.Lib.StableHlo.Run
import Idealize.ShloMosaic.Lib.KernelVsHost

noncomputable section

open scoped BigOperators

open Idealize.ShloMosaic Idealize.ShloMosaic.TcCoe Idealize.SL.Sem
open Idealize.ShloMosaic.Pipeline (Dat)

namespace Cert.SignProj.Kernel

open Cert.KernelIdeal Cert.KernelIdeal.Gen Idealize.ShloMosaic.ValueIdx

variable (m : (ℓ : Loc nD τ sig) → Buf (Elt Ideal) ℓ)

/-- The printed index maps over the grid: the `x` window and the result window move along the batch axis with the
    step, the weight window stays. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The step's `x` block at `(p, h, k)` is `x` at batch row `16t + p`. -/
theorem xblock_apply (c : Dev nD) (t : Fin cfg0.N) (p : Fin 16) (h : Fin 128) (k : Fin 512) (b : Fin 128)
    (hb : b.val = t.val * 16 + p.val) :
    (iblk m c 0 t : Vec Ideal S16x128x512 .f32) (ix3 p h k) = m ((c : Thread nD τ).loc main_arg0) (ix3 b h k) := by
  obtain ⟨e0, e1, e2, -⟩ := index_facts t
  unfold iblk
  rw [View.read_apply]
  show V m c main_arg0 (((cfg0.win 0).blk t).view.emb (ix3 p h k)) = _
  rw [V_main_arg0]
  refine congrArg (m ((c : Thread nD τ).loc main_arg0)) (funext fun a => Fin.ext ?_)
  match a with
  | ⟨0, _⟩ => show win0_0.index t (0 : Fin 3) * 16 + 1 * p.val = b.val; omega
  | ⟨1, _⟩ => show win0_0.index t (1 : Fin 3) * 128 + 1 * h.val = h.val; omega
  | ⟨2, _⟩ => show win0_0.index t (2 : Fin 3) * 512 + 1 * k.val = k.val; omega

/-- The step's weight block is the whole padded weight array. -/
theorem wblock_apply (c : Dev nD) (t : Fin cfg0.N) (k : Fin 512) (q : Fin 10112) :
    (iblk m c 1 t : Vec Ideal S512x10112 .bf16) (ix2 k q) = V m c main_v1 (ix2 k q) := by
  obtain ⟨-, -, -, e0, e1, -⟩ := index_facts t
  unfold iblk
  rw [View.read_apply]
  show V m c main_v1 (((cfg0.win 1).blk t).view.emb (ix2 k q)) = _
  refine congrArg (V m c main_v1) (funext fun a => Fin.ext ?_)
  match a with
  | ⟨0, _⟩ => show win0_1.index t (0 : Fin 2) * 512 + 1 * k.val = k.val; omega
  | ⟨1, _⟩ => show win0_1.index t (1 : Fin 2) * 10112 + 1 * q.val = q.val; omega

/-- The padded weight array as the region finds it: the host's zero padding of the narrowed weights. -/
theorem padded_weights (c : Dev nD) :
    (V m c main_v1 : S512x10112.Idx → EReal)
      = pad S512x10112 ![0, 0] ![0, 112] ![0, 0]
          (truncf (F := Ideal) .bf16 (m ((c : Thread nD τ).loc main_arg1)) bitsLt_bf16_f32)
          (sitofp (F := Ideal) .bf16 (constantI S_ 32 0#32)) pads_S512x10000_S512x10112_000_01120 h_S_ := by
  dsimp only [Gen.V, Gen.V0]
  simp only [Gen.hostOps0, Gen.hostOps0_1, List.flatten_cons, List.flatten_nil, List.append_nil, List.cons_append,
    List.nil_append]
  after_results
  rfl

/-- A column the padding does not touch holds the weight itself. -/
theorem padded_weights_apply (c : Dev nD) (k : Fin 512) (d : Fin 10000) (q : Fin 10112) (hq : q.val = d.val) :
    V m c main_v1 (ix2 k q) = m ((c : Thread nD τ).loc main_arg1) (ix2 k d) := by
  rw [padded_weights]
  refine (pad_apply_of_inside _ _ _ _ _ _ _ (ix2 k q) (ix2 k d) fun a => ?_).trans rfl
  match a with
  | ⟨0, _⟩ => show k.val = 0 + k.val * (0 + 1); omega
  | ⟨1, _⟩ => show q.val = 0 + d.val * (0 + 1); omega

/-- What the padded result array ends holding: at `(b, q)` the sign of the two products over the channel sums of
    `x` at batch row `b` and the padded weights' column `q`. -/
def paddedResult (c : Dev nD) : Buf (Elt Ideal) ((c : Thread nD τ).loc main_v2) := fun i =>
  padded (m ((c : Thread nD τ).loc main_arg0)) (V m c main_v1) ⟨(i 0).val, idx2_lt0 i⟩ ⟨(i 1).val, idx2_lt1 i⟩

/-- What step `t` writes back is block `t` of it. -/
theorem flushed_eq (c : Dev nD) (t : Fin cfg0.N) :
    (dats m 0 c).flushed 2 t = ((cfg0.win 2).blk t).view.read (Elt Ideal) (paddedResult m c) := by
  show (cfg0.win 2).cut (grid0.coords t) ((dats m 0 c).after 2 t) = _
  rw [after0_2]
  unfold outsAt0
  rw [out_eq]
  obtain ⟨-, -, -, -, -, e0, e1⟩ := index_facts t
  have hN : cfg0.N = 8 := N_0
  have ht : t.val < 8 := hN ▸ t.isLt
  funext y
  obtain ⟨p, q, rfl⟩ : ∃ (p : Fin 16) (q : Fin 10112), y = ix2 p q := ⟨y 0, y 1, eq_ix2 y⟩
  rw [View.read_apply]
  show bodyFn (F := Ideal) (iblk m c 0 t) (iblk m c 1 t) (ix2 p q) = paddedResult m c (((cfg0.win 2).blk t).view.emb (ix2 p q))
  rw [bodyFn_apply]
  have hb : t.val * 16 + p.val < 128 := by have := p.isLt; omega
  have h0 : ((((cfg0.win 2).blk t).view.emb (ix2 p q)) 0).val = t.val * 16 + p.val := by
    show win0_2.index t (0 : Fin 2) * 16 + 1 * p.val = _; omega
  have h1 : ((((cfg0.win 2).blk t).view.emb (ix2 p q)) 1).val = q.val := by
    show win0_2.index t (1 : Fin 2) * 10112 + 1 * q.val = _; omega
  unfold paddedResult padded
  have eb : (⟨((((cfg0.win 2).blk t).view.emb (ix2 p q)) 0).val, idx2_lt0 _⟩ : Fin 128) = ⟨t.val * 16 + p.val, hb⟩ := Fin.ext h0
  have eq : (⟨((((cfg0.win 2).blk t).view.emb (ix2 p q)) 1).val, idx2_lt1 _⟩ : Fin 10112) = q := Fin.ext h1
  rw [eb, eq]
  have hx : ∀ k : Fin 512, (fun h : Fin 128 => (iblk m c 0 t : Vec Ideal S16x128x512 .f32) (ix3 p h k))
      = fun h => m ((c : Thread nD τ).loc main_arg0) (ix3 ⟨t.val * 16 + p.val, hb⟩ h k) := fun k =>
    funext fun h => xblock_apply m c t p h k ⟨t.val * 16 + p.val, hb⟩ rfl
  refine congrArg Ideal.sign (congrArg₂ (· + ·) (Finset.sum_congr rfl fun k _ => ?_) (Finset.sum_congr rfl fun k _ => ?_))
  · rw [hx k, wblock_apply]
  · rw [hx k, wblock_apply]

/-- An index of the padded result is in step `t`'s block iff each coordinate is in the block's range on its axis. -/
theorem mem_blk (t : Fin cfg0.N) (i : S128x10112.Idx) :
    i ∈ ((cfg0.win 2).blk t).view.set ↔ ∀ a : Fin 2, win0_2.index t a * S16x10112.size a ≤ (i a).val
      ∧ (i a).val < win0_2.index t a * S16x10112.size a + S16x10112.size a := by
  show i ∈ ((View.whole main_v2).slice (win0_2.rect t)).set ↔ _
  rw [View.set_slice_whole, Rect.mem_set_unit]
  exact Iff.rfl

/-- Every entry of the padded result is written back by the step that owns its batch row. -/
theorem covered (i : S128x10112.Idx) :
    ∃ t : Fin cfg0.N, (cfg0.win 2).flush t = true ∧ i ∈ ((cfg0.win 2).blk t).view.set := by
  have hN : cfg0.N = 8 := N_0
  have hi0 : (i 0).val < 128 := (i 0).isLt
  have hi1 : (i 1).val < 10112 := (i 1).isLt
  refine ⟨⟨(i 0).val / 16, by rw [hN]; omega⟩, flush0_2 _, ?_⟩
  rw [mem_blk]
  obtain ⟨-, -, -, -, -, e0, e1⟩ := index_facts ⟨(i 0).val / 16, by rw [hN]; omega⟩
  intro a
  match a with
  | ⟨0, _⟩ =>
    show win0_2.index _ (0 : Fin 2) * 16 ≤ (i 0).val ∧ (i 0).val < win0_2.index _ (0 : Fin 2) * 16 + 16
    rw [e0]; dsimp only; omega
  | ⟨1, _⟩ =>
    show win0_2.index _ (1 : Fin 2) * 10112 ≤ (i 1).val ∧ (i 1).val < win0_2.index _ (1 : Fin 2) * 10112 + 10112
    rw [e1]; omega

/-- So the padded result array ends holding it. -/
theorem final (c : Dev nD) : (dats m 0 c).arrAt 2 cfg0.N = paddedResult m c :=
  (dats m 0 c).arrAt_eq_of_cover 2 (paddedResult m c) (fun t _ => flushed_eq m c t) covered

end Cert.SignProj.Kernel

end
-- ==== Proof.Run.lean ====
/-
  The idealized kernel's run, read: its result array ends at the specification of its argument arrays.

  After the grid the padded result holds, at `(b, q)`, the sign of the two products over the channel sums; the host
  then keeps columns `0 … 9999`, where the padded weights are the weights themselves.  The precondition says every entry
  of `x` is a real number, which is what makes the remainder product vanish; so the result at `(b, d)` is the sign of
  the sum over `k` of the channel sum of `x` at `(b, ·, k)` times the weight at `(k, d)`.
-/
import proofs.«169891_j11115375362812_2_alg».proof.Defs
import proofs.«169891_j11115375362812_2_alg».proof.Proof.Gen.Pre_finite_inputs
import proofs.«169891_j11115375362812_2_alg».proof.Proof.Blocks
import Idealize.ShloMosaic.Lib.ReduceAll
import Idealize.ShloMosaic.Lib.IdealHost

noncomputable section

open scoped BigOperators

open Idealize.ShloMosaic Idealize.ShloMosaic.TcCoe Idealize.SL.Sem
open Idealize.ShloMosaic.Pipeline (Dat)

namespace Cert.SignProj.Kernel

open Cert.KernelIdeal Cert.KernelIdeal.Gen Idealize.ShloMosaic.ValueIdx Idealize.ShloMosaic.RealEntries

variable (m : (ℓ : Loc nD τ sig) → Buf (Elt Ideal) ℓ) (ρ : Dev nD → PrngReg)

/-- Under the precondition every entry of `x` is a real number. -/
theorem real_x (hpre : Cert.Pre_KernelIdeal m) (c : Dev nD) (i : S128x128x512.Idx) :
    IsReal (m ((c : Thread nD τ).loc main_arg0) i) := by
  have h := congrFun (hpre c) ix0
  dsimp only [Cert.Pre_finite_inputs.fn] at h
  have h' := (IntOp.andi_eq_one.mp h).1
  haveI : Subsingleton Cert.Pre_finite_inputs.S_.Idx := ⟨fun a b => funext fun d => d.elim0⟩
  have e := Host.reduce_andi_all _ _ _ _ ix0 h' i
  exact real_of_flag (m ((c : Thread nD τ).loc main_arg0)) _ (fun j => broadcastInDim_scalar_apply _ _ j) i e

/-- The host line after the region keeps the first 10000 columns of the padded result. -/
theorem tail_eq (c : Dev nD) :
    Pipeline.afterTail₀ cfgs (dats m) 0 (V0 m) [hostOps1] c main_v3
      = extractStridedSlice S128x10000 ![0, 0] (paddedResult m c) slices_S128x10112_S128x10000_0_0 := by
  unfold Pipeline.afterTail₀
  show StableHlo.after hostOps1 _ (Proc.devRef .tc main_v3) = _
  after_results
  rw [(Pipeline.withArrays_arr spec0 launch0.win.arr_inj c _ _ 2).trans (final m c)]

/-- On real `x` the kept columns are the specification. -/
theorem kept_eq_spec (c : Dev nD) (hx : ∀ i, IsReal (m ((c : Thread nD τ).loc main_arg0) i)) :
    extractStridedSlice S128x10000 ![0, 0] (paddedResult m c) slices_S128x10112_S128x10000_0_0
      = specArr (m ((c : Thread nD τ).loc main_arg0)) (m ((c : Thread nD τ).loc main_arg1)) := by
  funext i
  obtain ⟨b, d, rfl⟩ : ∃ (b : Fin 128) (d : Fin 10000), i = ix2 b d := ⟨i 0, i 1, eq_ix2 i⟩
  have hd : d.val < 10112 := by have := d.isLt; omega
  rw [extractStridedSlice_apply ![0, 0] (paddedResult m c) slices_S128x10112_S128x10000_0_0 (ix2 b d)
    (ix2 b (⟨d.val, hd⟩ : Fin 10112)) (fun a => by
      match a with
      | ⟨0, _⟩ => show b.val = 0 + b.val; omega
      | ⟨1, _⟩ => show d.val = 0 + d.val; omega)]
  rw [specArr_apply]
  show padded _ _ _ _ = _
  exact padded_eq_spec _ _ _ hx b d _ fun k => padded_weights_apply m c k d _ rfl

/-- The run: the result array at the specification, the arguments unchanged. -/
theorem run (hpre : Cert.Pre_KernelIdeal m) :
    θ_run defs (onTc (τ := τ) (main (F := Ideal))) ⟨m, fun _ => 0, ρ⟩ fun r => ∀ c : Dev nD,
      r.2.mem ((c.tc : Thread nD τ).loc main_v3)
          = specArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans
        ((tail_eq m c).trans (kept_eq_spec m c (real_x m hpre c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.SignProj.Kernel

end
-- ==== Proof.lean ====
/-
  The certificate of the sign projection `out[b, d] = sign (∑ₕ ∑ₖ x[b, h, k] · w[k, d])`.

  The reference sums `x` over the channel axis `h`, contracts the result with the weights over `k`, and takes the
  sign.  The kernel walks the batch axis in eight steps of sixteen rows; a step sums its `x` block over the channels in
  four chunks of 32, multiplies the row sums `S` against the zero-padded weights, adds the product of the remainder
  `S − S` against the same weights, takes the sign, and writes sixteen rows of a padded result whose first 10000 columns
  the host keeps.  Read on the extended reals, where the narrowing to sixteen bits is the identity:

    * the three frames: the two kernels' are the generated frame runs, the reference's its generated run with the
      result dropped;
    * the idealization's two rewrites (a narrowing undone by the widening after it; one with the sign bit of `a` as the
      comparison of `a` with zero) are their rules' statements;
    * the equivalence: the kernel's result array ends at the specification `sign (∑ₖ (∑ₕ x (b, h, k)) · w (k, d))` of
      its arguments (the four chunks add up to the channel sum by associativity and commutativity alone; every entry of
      `x` being a real number, `S − S = 0` and the second product vanishes; a column below 10000 of the padded weights is
      the weight), and the reference's result is the same specification of arguments that agree.
-/
import proofs.«169891_j11115375362812_2_alg».proof.Defs
import proofs.«169891_j11115375362812_2_alg».proof.Proof.Gen.Kernel
import proofs.«169891_j11115375362812_2_alg».proof.Proof.Gen.Kernel.Skeleton
import proofs.«169891_j11115375362812_2_alg».proof.Proof.Gen.Kernel.Launch
import proofs.«169891_j11115375362812_2_alg».proof.Proof.Gen.Kernel.Points
import proofs.«169891_j11115375362812_2_alg».proof.Proof.Gen.Kernel.Frame
import proofs.«169891_j11115375362812_2_alg».proof.Proof.Gen.KernelIdeal
import proofs.«169891_j11115375362812_2_alg».proof.Proof.Gen.KernelIdeal.Skeleton
import proofs.«169891_j11115375362812_2_alg».proof.Proof.Gen.KernelIdeal.Launch
import proofs.«169891_j11115375362812_2_alg».proof.Proof.Gen.KernelIdeal.Points
import proofs.«169891_j11115375362812_2_alg».proof.Proof.Gen.KernelIdeal.Frame
import proofs.«169891_j11115375362812_2_alg».proof.Proof.Gen.ReferenceIdeal
import proofs.«169891_j11115375362812_2_alg».proof.Proof.Gen.Pre_finite_inputs
import proofs.«169891_j11115375362812_2_alg».proof.Proof.Gen.ReferenceIdeal.Run
import proofs.«169891_j11115375362812_2_alg».proof.Proof.Gen.ReferenceIdeal.Read
import proofs.«169891_j11115375362812_2_alg».proof.Proof.RefValue
import proofs.«169891_j11115375362812_2_alg».proof.Proof.Run
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two rewrites of the idealization: a narrowing to sixteen bits undone by the widening after it is the identity
    on extended reals, and one with a value's sign bit is `-1` below zero and `1` otherwise. -/
theorem preserves : Cert.preserves_Kernel_KernelIdeal :=
  ⟨IdealRules.truncf_extf.statement _ .f32 .bf16, IdealRules.sign_bit.statement _ .f32⟩

/-- Both idealized programs end at the specification of their arguments, which agree. -/
theorem algebraic : Cert.algebraic_KernelIdeal_ReferenceIdeal := by
  intro m ρ m' ρ' hpre hagree
  refine ⟨fun c => Cert.SignProj.specArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SignProj.Kernel.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.SignProj.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
